-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S25000x1 : Shape := ⟨2, ![25000, 1]⟩
abbrev S100000x1 : Shape := ⟨2, ![100000, 1]⟩
abbrev S128x128 : Shape := ⟨2, ![128, 128]⟩
abbrev S_ : Shape := ⟨0, ![]⟩
abbrev S128 : Shape := ⟨1, ![128]⟩
abbrev S640000 : Shape := ⟨1, ![640000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S25000x1 : S_.BroadcastsInDim S25000x1 (![] : Fin 0 → Fin S25000x1.rank)
  reducesTo_S25000x1_S_d0_1 : S25000x1.ReducesTo [0, 1] S_
  bcast_S_S100000x1 : S_.BroadcastsInDim S100000x1 (![] : Fin 0 → Fin S100000x1.rank)
  reducesTo_S100000x1_S_d0_1 : S100000x1.ReducesTo [0, 1] S_
  bcast_S_S128x128 : S_.BroadcastsInDim S128x128 (![] : Fin 0 → Fin S128x128.rank)
  reducesTo_S128x128_S_d0_1 : S128x128.ReducesTo [0, 1] S_
  reducesTo_S_S_d : S_.ReducesTo [] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v31 : IVec S_ 1) (main_v32 : FVec F S128 .f32) (main_cst_12 : FVec F S_ .f32) : IVec S_ 1 :=
  let main_v33 : FVec F S128 .f32 := broadcastInDim S128 ![] bcast_S_S128 main_cst_12
  let main_v34 : IVec S128 1 := cmpf .olt main_v32 main_v33
  let main_c_13 : IVec S_ 1 := constantI S_ 1 1#1
  let main_v35 : IVec S_ 1 := (fun x v => Host.reduce IntOp.andi x v reducesTo_S128_S_d0 h_S_) main_v34 main_c_13
  let main_v36 : IVec S_ 1 := andi main_v31 main_v35
  let main_v37 : FVec F S128 .f32 := Host.absf main_arg8
  let main_cst_14 : FVec F S_ .f32 := constant S_ .f32 0x7F800000#32
  let main_v38 : FVec F S128 .f32 := broadcastInDim S128 ![] bcast_S_S128 main_cst_14
  let main_v39 : IVec S128 1 := cmpf .olt main_v37 main_v38
  let main_c_15 : IVec S_ 1 := constantI S_ 1 1#1
  let main_v40 : IVec S_ 1 := (fun x v => Host.reduce IntOp.andi x v reducesTo_S128_S_d0 h_S_) main_v39 main_c_15
  let main_v41 : IVec S_ 1 := andi main_v36 main_v40
  main_v41

def fn_part1 {F : FTy → Type} [FloatOps F] (main_arg4 : FVec F S128x128 .f32) (main_arg5 : FVec F S_ .f32) (main_arg6 : FVec F S_ .f32) (main_arg7 : FVec F S128 .f32) (main_arg8 : FVec F S128 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S_ .f32 := Host.absf main_arg6
  let main_cst_10 : FVec F S_ .f32 := constant S_ .f32 0x7F800000#32
  let main_v29 : IVec S_ 1 := cmpf .olt main_v28 main_cst_10
  let main_c_11 : IVec S_ 1 := constantI S_ 1 1#1
  let main_v30 : IVec S_ 1 := (fun x v => Host.reduce IntOp.andi x v reducesTo_S_S_d h_S_) main_v29 main_c_11
  let main_v31 : IVec S_ 1 := andi main_v27 main_v30
  let main_v32 : FVec F S128 .f32 := Host.absf main_arg7
  let main_cst_12 : FVec F S_ .f32 := constant S_ .f32 0x7F800000#32
  fn_part2 (F := F) main_arg8 main_v31 main_v32 main_cst_12

def fn {F : FTy → Type} [FloatOps F] (main_arg0 : FVec F S100000x128 .f32) (main_arg1 : FVec F S100000x128 .f32) (main_arg2 : FVec F S25000x1 .f32) (main_arg3 : FVec F S100000x1 .f32) (main_arg4 : FVec F S128x128 .f32) (main_arg5 : FVec F S_ .f32) (main_arg6 : FVec F S_ .f32) (main_arg7 : FVec F S128 .f32) (main_arg8 : FVec F S128 .f32) (main_arg9 : IVec S640000 32) (main_arg10 : IVec S640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S25000x1 .f32 := Host.absf main_arg2
  let main_cst_2 : FVec F S_ .f32 := constant S_ .f32 0x7F800000#32
  let main_v10 : FVec F S25000x1 .f32 := broadcastInDim S25000x1 ![] bcast_S_S25000x1 main_cst_2
  let main_v11 : IVec S25000x1 1 := cmpf .olt main_v9 main_v10
  let main_c_3 : IVec S_ 1 := constantI S_ 1 1#1
  let main_v12 : IVec S_ 1 := (fun x v => Host.reduce IntOp.andi x v reducesTo_S25000x1_S_d0_1 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S25000x1 : Shape := ⟨2, ![25000, 1]⟩
abbrev S100000x1 : Shape := ⟨2, ![100000, 1]⟩
abbrev S128x128 : Shape := ⟨2, ![128, 128]⟩
abbrev S_ : Shape := ⟨0, ![]⟩
abbrev S128 : Shape := ⟨1, ![128]⟩
abbrev S640000 : Shape := ⟨1, ![640000]⟩
abbrev S640000x1 : Shape := ⟨2, ![640000, 1]⟩
abbrev S640000x128 : Shape := ⟨2, ![640000, 128]⟩
abbrev S25000x128 : Shape := ⟨2, ![25000, 128]⟩
abbrev S1000x128 : Shape := ⟨2, ![1000, 128]⟩
abbrev S1000x1 : Shape := ⟨2, ![1000, 1]⟩
abbrev S1x128 : Shape := ⟨2, ![1, 128]⟩
abbrev S1x1 : Shape := ⟨2, ![1, 1]⟩
abbrev S4000x128 : Shape := ⟨2, ![4000, 128]⟩
abbrev S4000x1 : Shape := ⟨2, ![4000, 1]⟩
abbrev S4000 : Shape := ⟨1, ![4000]⟩

abbrev nBuf : Space → Nat
  | .hbm => 50
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S25000x1, .f32⟩
  | .hbm, ⟨3, _⟩ => ⟨S100000x1, .f32⟩
  | .hbm, ⟨4, _⟩ => ⟨S128x128, .f32⟩
  | .hbm, ⟨5, _⟩ => ⟨S_, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .f32⟩
  | .hbm, ⟨21, _⟩ => ⟨S25000x128, .f32⟩
  | .hbm, ⟨22, _⟩ => ⟨S640000x1, .i32⟩
  | .hbm, ⟨23, _⟩ => ⟨S25000x128, .f32⟩
  | .hbm, ⟨24, _⟩ => ⟨S_, .f32⟩
  | .hbm, ⟨25, _⟩ => ⟨S640000x1, .f32⟩
  | .hbm, ⟨26, _⟩ => ⟨S_, .f32⟩
  | .hbm, ⟨27, _⟩ => ⟨S25000x1, .f32⟩
  | .hbm, ⟨28, _⟩ => ⟨S640000x1, .i32⟩
  | .hbm, ⟨29, _⟩ => ⟨S25000x1, .f32⟩
  | .hbm, ⟨30, _⟩ => ⟨S25000x128, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x128, .f32⟩
  | .hbm, ⟨40, _⟩ => ⟨S_, .f32⟩
  | .hbm, ⟨41, _⟩ => ⟨S100000x128, .f32⟩
  | .hbm, ⟨42, _⟩ => ⟨S640000x1, .i32⟩
  | .hbm, ⟨43, _⟩ => ⟨S100000x128, .f32⟩
  | .hbm, ⟨44, _⟩ => ⟨S1x128, .f32⟩
  | .hbm, ⟨45, _⟩ => ⟨S1x128, .f32⟩
  | .hbm, ⟨46, _⟩ => ⟨S128x128, .f32⟩
  | .hbm, ⟨47, _⟩ => ⟨S1x1, .f32⟩
  | .hbm, ⟨48, _⟩ => ⟨S1x1, .f32⟩
  | .hbm, ⟨49, _⟩ => ⟨S100000x128, .f32⟩
  | .local _ .vmem, ⟨0, _⟩ => ⟨S1000x128, .f32⟩
  | .local _ .vmem, ⟨1, _⟩ => ⟨S1000x128, .f32⟩
  | .local _ .vmem, ⟨2, _⟩ => ⟨S1000x1, .f32⟩
  | .local _ .vmem, ⟨3, _⟩ => ⟨S1000x1, .f32⟩
  | .local _ .vmem, ⟨4, _⟩ => ⟨S1000x1, .f32⟩
  | .local _ .vmem, ⟨5, _⟩ => ⟨S1000x1, .f32⟩
  | .local _ .vmem, ⟨6, _⟩ => ⟨S1000x128, .f32⟩
  | .local _ .vmem, ⟨7, _⟩ => ⟨S1000x128, .f32⟩
  | .local _ .vmem, ⟨8, _⟩ => ⟨S4000x128, .f32⟩
  | .local _ .vmem, ⟨9, _⟩ => ⟨S4000x128, .f32⟩
  | .local _ .vmem, ⟨10, _⟩ => ⟨S4000x1, .f32⟩
  | .local _ .vmem, ⟨11, _⟩ => ⟨S4000x1, .f32⟩
  | .local _ .vmem, ⟨12, _⟩ => ⟨S4000x128, .f32⟩
  | .local _ .vmem, ⟨13, _⟩ => ⟨S4000x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x1, .f32⟩
  | .local _ .vmem, ⟨18, _⟩ => ⟨S1x1, .f32⟩
  | .local _ .vmem, ⟨19, _⟩ => ⟨S4000x128, .f32⟩
  | .local _ .vmem, ⟨20, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S25000x128 : S_.BroadcastsInDim S25000x128 (![] : Fin 0 → Fin S25000x128.rank)
  bcast_S_S640000x1 : S_.BroadcastsInDim S640000x1 (![] : Fin 0 → Fin S640000x1.rank)
  bcast_S_S25000x1 : S_.BroadcastsInDim S25000x1 (![] : Fin 0 → Fin S25000x1.rank)
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1000x1_S1000x128 : S1000x1.Broadcasts S1000x128
  bcast_S_S100000x128 : S_.BroadcastsInDim S100000x128 (![] : Fin 0 → Fin S100000x128.rank)
  shapeCasts_S128_S1x128 : S128.ShapeCasts S1x128
  transposes_S128x128_S128x128_1_0 : S128x128.Transposes [1, 0] S128x128
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  broadcasts_S4000x1_S4000x128 : S4000x1.Broadcasts S4000x128
  reduces_S4000x128_S4000 : S4000x128.Reduces [1] S4000
  shapeCasts_S4000_S4000x1 : S4000.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  broadcasts_S1x1_S4000x128 : S1x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S640000x1_S640000x128_1_0_n_n_0_1_1128_wf : GatherDims.WF S100000x128 S640000x1 S640000x128 [1] [0] [] [0] [] 1 ![1, 128]
  scatter_S25000x128_S640000x1_S640000x128_1_0_0_1_wf : ScatterDims.WF S25000x128 S640000x1 S640000x128 [1] [0] [0] 1
  scatter_S25000x1_S640000x1_S640000x1_1_0_0_1_wf : ScatterDims.WF S25000x1 S640000x1 S640000x1 [1] [0] [0] 1
  gather_S25000x128_S640000x1_S640000x128_1_0_n_n_0_1_1128_wf : GatherDims.WF S25000x128 S640000x1 S640000x128 [1] [0] [] [0] [] 1 ![1, 128]
  scatter_S100000x128_S640000x1_S640000x128_1_0_0_1_wf : ScatterDims.WF S100000x128 S640000x1 S640000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S25000x128.size a
  hwx0_0 : ∀ i : grid0.Coords, EltTy.bits .f32 = 32 ∨ (Rect.block (s := S25000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S25000x1.size a
  hwx0_1 : ∀ i : grid0.Coords, EltTy.bits .f32 = 32 ∨ (Rect.block (s := S25000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S25000x1.size a
  hwx0_2 : ∀ i : grid0.Coords, EltTy.bits .f32 = 32 ∨ (Rect.block (s := S25000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S25000x128.size a
  hwx0_3 : ∀ i : grid0.Coords, EltTy.bits .f32 = 32 ∨ (Rect.block (s := S25000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S100000x128.size a
  hwx1_8 : ∀ i : grid1.Coords, EltTy.bits .f32 = 32 ∨ (Rect.block (s := S100000x128) S4000x128.size (cc1_transform_8 i) (hinb1_8 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S25000x128_S640000x1_S640000x128_1_0_0_1 : ScatterDims S25000x128 S640000x1 S640000x128 where
  updateWindowDims := [1]
  insertedWindowDims := [0]
  scatterDimsToOperandDims := [0]
  indexVectorDim := 1
  wf := scatter_S25000x128_S640000x1_S640000x128_1_0_0_1_wf
def scatter_S25000x1_S640000x1_S640000x1_1_0_0_1 : ScatterDims S25000x1 S640000x1 S640000x1 where
  updateWindowDims := [1]
  insertedWindowDims := [0]
  scatterDimsToOperandDims := [0]
  indexVectorDim := 1
  wf := scatter_S25000x1_S640000x1_S640000x1_1_0_0_1_wf
def gather_S25000x128_S640000x1_S640000x128_1_0_n_n_0_1_1128 : GatherDims S25000x128 S640000x1 S640000x128 where
  offsetDims := [1]
  collapsedSliceDims := [0]
  operandBatchingDims := []
  startIndicesBatchingDims := []
  startIndexMap := [0]
  indexVectorDim := 1
  sliceSizes := ![1, 128]
  wf := gather_S25000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v9) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S4000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S25000x1 : Shape := ⟨2, ![25000, 1]⟩
abbrev S100000x1 : Shape := ⟨2, ![100000, 1]⟩
abbrev S128x128 : Shape := ⟨2, ![128, 128]⟩
abbrev S_ : Shape := ⟨0, ![]⟩
abbrev S128 : Shape := ⟨1, ![128]⟩
abbrev S640000 : Shape := ⟨1, ![640000]⟩
abbrev S640000x1 : Shape := ⟨2, ![640000, 1]⟩
abbrev S640000x128 : Shape := ⟨2, ![640000, 128]⟩
abbrev S25000x128 : Shape := ⟨2, ![25000, 128]⟩
abbrev S100000 : Shape := ⟨1, ![100000]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S25000x1, .f32⟩
  | .hbm, ⟨3, _⟩ => ⟨S100000x1, .f32⟩
  | .hbm, ⟨4, _⟩ => ⟨S128x128, .f32⟩
  | .hbm, ⟨5, _⟩ => ⟨S_, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .f32⟩
  | .hbm, ⟨21, _⟩ => ⟨S25000x128, .f32⟩
  | .hbm, ⟨22, _⟩ => ⟨S640000x1, .i32⟩
  | .hbm, ⟨23, _⟩ => ⟨S25000x128, .f32⟩
  | .hbm, ⟨24, _⟩ => ⟨S_, .f32⟩
  | .hbm, ⟨25, _⟩ => ⟨S640000x1, .f32⟩
  | .hbm, ⟨26, _⟩ => ⟨S_, .f32⟩
  | .hbm, ⟨27, _⟩ => ⟨S25000x1, .f32⟩
  | .hbm, ⟨28, _⟩ => ⟨S640000x1, .i32⟩
  | .hbm, ⟨29, _⟩ => ⟨S25000x1, .f32⟩
  | .hbm, ⟨30, _⟩ => ⟨S_, .f32⟩
  | .hbm, ⟨31, _⟩ => ⟨S25000x1, .f32⟩
  | .hbm, ⟨32, _⟩ => ⟨S25000x1, .f32⟩
  | .hbm, ⟨33, _⟩ => ⟨S25000x128, .f32⟩
  | .hbm, ⟨34, _⟩ => ⟨S25000x128, .f32⟩
  | .hbm, ⟨35, _⟩ => ⟨S25000x128, .f32⟩
  | .hbm, ⟨36, _⟩ => ⟨S25000x128, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x128, .f32⟩
  | .hbm, ⟨46, _⟩ => ⟨S_, .f32⟩
  | .hbm, ⟨47, _⟩ => ⟨S100000x128, .f32⟩
  | .hbm, ⟨48, _⟩ => ⟨S640000x1, .i32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000, .f32⟩
  | .hbm, ⟨55, _⟩ => ⟨S100000x1, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000, .f32⟩
  | .hbm, ⟨64, _⟩ => ⟨S100000x1, .f32⟩
  | .hbm, ⟨65, _⟩ => ⟨S_, .f32⟩
  | .hbm, ⟨66, _⟩ => ⟨S100000x1, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x1, .f32⟩
  | .hbm, ⟨72, _⟩ => ⟨S100000x1, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S_, .f32⟩
  | .hbm, ⟨91, _⟩ => ⟨S100000x128, .f32⟩
  | .hbm, ⟨92, _⟩ => ⟨S100000x128, .f32⟩
  | .hbm, ⟨93, _⟩ => ⟨S128x128, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S25000x128 : S_.BroadcastsInDim S25000x128 (![] : Fin 0 → Fin S25000x128.rank)
  bcast_S_S640000x1 : S_.BroadcastsInDim S640000x1 (![] : Fin 0 → Fin S640000x1.rank)
  bcast_S_S25000x1 : S_.BroadcastsInDim S25000x1 (![] : Fin 0 → Fin S25000x1.rank)
  bcast_S25000x1_S25000x128_0_1 : S25000x1.BroadcastsInDim S25000x128 (![0, 1] : Fin 2 → Fin S25000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x128_S128x128_1_0 : S128x128.Transposes [1, 0] S128x128
  gather_S100000x128_S640000x1_S640000x128_1_0_n_n_0_1_1128_wf : GatherDims.WF S100000x128 S640000x1 S640000x128 [1] [0] [] [0] [] 1 ![1, 128]
  scatter_S25000x128_S640000x1_S640000x128_1_0_0_1_wf : ScatterDims.WF S25000x128 S640000x1 S640000x128 [1] [0] [0] 1
  scatter_S25000x1_S640000x1_S640000x1_1_0_0_1_wf : ScatterDims.WF S25000x1 S640000x1 S640000x1 [1] [0] [0] 1
  gather_S25000x128_S640000x1_S640000x128_1_0_n_n_0_1_1128_wf : GatherDims.WF S25000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S25000x128_S640000x1_S640000x128_1_0_0_1 : ScatterDims S25000x128 S640000x1 S640000x128 where
  updateWindowDims := [1]
  insertedWindowDims := [0]
  scatterDimsToOperandDims := [0]
  indexVectorDim := 1
  wf := scatter_S25000x128_S640000x1_S640000x128_1_0_0_1_wf
def scatter_S25000x1_S640000x1_S640000x1_1_0_0_1 : ScatterDims S25000x1 S640000x1 S640000x1 where
  updateWindowDims := [1]
  insertedWindowDims := [0]
  scatterDimsToOperandDims := [0]
  indexVectorDim := 1
  wf := scatter_S25000x1_S640000x1_S640000x1_1_0_0_1_wf
def gather_S25000x128_S640000x1_S640000x128_1_0_n_n_0_1_1128 : GatherDims S25000x128 S640000x1 S640000x128 where
  offsetDims := [1]
  collapsedSliceDims := [0]
  operandBatchingDims := []
  startIndicesBatchingDims := []
  startIndexMap := [0]
  indexVectorDim := 1
  sliceSizes := ![1, 128]
  wf := gather_S25000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result array named. The program is four segments: the host lines that
  gather and segment-sum the vertex features, the edge kernel, the host lines that gather and segment-sum the
  edge features back to the vertices (and reshape the small operands), and the node kernel. Every weakly fair
  execution terminates with the result buffer at the contents the last segment boundary holds there, and with
  the eleven argument arrays as launched.
-/
import proofs.«129156_j67688684585239_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_out : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

/-- The last boundary holds, at the result buffer, what the node kernel's write-backs leave of it. -/
theorem W4_out (c : Dev nD) : W4 m ρ c (Proc.devRef .tc main_v30) = (dat1 (V3 m ρ) c).arrAt 8 cfg1.N :=
  W4_arr m ρ c 8

/-- The node kernel's first operand, as it finds it: what the second stretch of host lines leaves in the
    segment-sum's buffer. -/
theorem W2_edge (c : Dev nD) : W2 m ρ c (Proc.devRef .tc main_v14) = (dat0 (V1 m ρ) c).arrAt 3 cfg0.N :=
  W2_arr m ρ c 3

end Cert.KernelIdeal.Out

end
-- ==== Proof.RowSpec.lean ====
/-
  What the two programs compute, row by row, on the extended reals.

  Edge side: a hyperedge's feature is the sum of its incident vertices' features divided by the larger of
  the incidence count and one, times the edge's degree weight.

  Vertex side: for one vertex with aggregated row `x`, degree weight `d`, initial row `x⁰`, layer-norm
  weight `g` and bias `b`, mixing scalars `α`, `β` and the matrix `w` (already transposed: `w k q`):
    h k   = x k · d + x k · d                       the row, doubled by the residual
    μ     = (Σ h) / 128,     δ k = h k − μ
    σ²    = (Σ δ²) / 128,    r   = 1 / √(σ² + ε)
    n k   = δ k · r · g k + b k
    ξ k   = (1 − α) · n k + α · x⁰ k
    out q = (1 − β) · ξ q + β · Σ_k ξ k · w k q
  The three constants are the float words both programs spell (1, 128 and ε), never evaluated.
-/
import Idealize.ShloMosaic.PureOps.Ideal
import Idealize.ShloMosaic.Lib.ValueIdx

noncomputable section

open scoped BigOperators

namespace Cert.RowSpec

open Idealize.ShloMosaic Idealize.ShloMosaic.ValueIdx

/-- The word of `1.0`. -/
abbrev one : EReal := Ideal.ofBits .f32 0x3F800000#32
/-- The word of `128.0`, the number of lanes of a row. -/
abbrev lanes : EReal := Ideal.ofBits .f32 0x43000000#32
/-- The word of the layer norm's `ε`. -/
abbrev eps : EReal := Ideal.ofBits .f32 0x3727C5AC#32

/-- One entry of a hyperedge's feature: the sum over its vertices, averaged, degree-scaled. -/
def edge (es ec dg : EReal) : EReal := Ideal.div es (max ec one) * dg

section Vertex

variable (x : Fin 128 → EReal) (d : EReal) (x0 g b : Fin 128 → EReal) (w : Fin 128 → Fin 128 → EReal) (al be : EReal)

/-- The degree-scaled row added to itself. -/
def dbl (k : Fin 128) : EReal := x k * d + x k * d
/-- Its mean. -/
def mean : EReal := Ideal.div (∑ k, dbl x d k) lanes
/-- The row centred. -/
def dev (k : Fin 128) : EReal := dbl x d k - mean x d
/-- The reciprocal standard deviation. -/
def rstd : EReal := Ideal.rsqrt (Ideal.div (∑ k, dev x d k * dev x d k) lanes + eps)
/-- The normalised row, scaled and shifted. -/
def norm (k : Fin 128) : EReal := dev x d k * rstd x d * g k + b k
/-- The blend with the initial row. -/
def blend (k : Fin 128) : EReal := (one - al) * norm x d g b k + al * x0 k
/-- The result row: the blend mixed with its image under the matrix. -/
def out (q : Fin 128) : EReal :=
  (one - be) * blend x d x0 g b al q + be * ∑ k, blend x d x0 g b al k * w k q

end Vertex

/-- An index's row. -/
abbrev rowOf {n0 n1 : ℕ} (i : (⟨2, ![n0, n1]⟩ : Shape).Idx) : Fin n0 := ⟨(i 0).val, idx2_lt0 i⟩
/-- An index's lane. -/
abbrev colOf {n0 n1 : ℕ} (i : (⟨2, ![n0, n1]⟩ : Shape).Idx) : Fin n1 := ⟨(i 1).val, idx2_lt1 i⟩

/-- The hyperedge features as one array function of the summed features, the counts and the degree weights. -/
def edgeG {n : ℕ} (es : Fin n → Fin 128 → EReal) (ec dg : Fin n → EReal) : (⟨2, ![n, 128]⟩ : Shape).Idx → EReal :=
  fun i => edge (es (rowOf i) (colOf i)) (ec (rowOf i)) (dg (rowOf i))

/-- The result as one array function of the aggregated vertex rows and the other operands. -/
def nodeG {n : ℕ} (xv : Fin n → Fin 128 → EReal) (dv : Fin n → EReal) (x0 : Fin n → Fin 128 → EReal)
    (g b : Fin 128 → EReal) (w : Fin 128 → Fin 128 → EReal) (al be : EReal) : (⟨2, ![n, 128]⟩ : Shape).Idx → EReal :=
  fun i => out (xv (rowOf i)) (dv (rowOf i)) (x0 (rowOf i)) g b w al be (colOf i)

theorem edgeG_ix2 {n : ℕ} (es : Fin n → Fin 128 → EReal) (ec dg : Fin n → EReal) (r : Fin n) (q : Fin 128) :
    edgeG es ec dg (ix2 r q) = edge (es r q) (ec r) (dg r) := rfl

theorem nodeG_ix2 {n : ℕ} (xv : Fin n → Fin 128 → EReal) (dv : Fin n → EReal) (x0 : Fin n → Fin 128 → EReal)
    (g b : Fin 128 → EReal) (w : Fin 128 → Fin 128 → EReal) (al be : EReal) (r : Fin n) (q : Fin 128) :
    nodeG xv dv x0 g b w al be (ix2 r q) = out (xv r) (dv r) (x0 r) g b w al be q := rfl

end Cert.RowSpec

end
-- ==== Proof.LibLayout.lean ====
/-
  Layout operations read at an index, for the shapes a row-normalising kernel meets: a column broadcast along
  the lanes, a one-element array broadcast everywhere, a vector cast to a column, and a lane sum of a matrix
  read as the sum of one row.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibLayout

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-element array `[1, 1]` broadcast to `[a, b]` reads its element everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An `[a]` array cast to a column `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu]; omega)

/-- The sum along the lanes of an `[a, b]` matrix of extended reals, read at row `p`: the sum of that row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Cert.LibLayout

end
-- ==== Proof.EdgeBody.lean ====
/-
  The edge kernel's arithmetic on one block of 1000 hyperedges, read entry by entry: at row `p` and lane `q`
  the stored value is the summed vertex feature there, divided by the larger of the row's incidence count and
  one, times the row's degree weight. The count and the weight are columns, broadcast along the lanes.
-/
import proofs.«129156_j67688684585239_2_alg».proof.Proof.Gen.KernelIdeal.Skeleton
import proofs.«129156_j67688684585239_2_alg».proof.Proof.RowSpec
import proofs.«129156_j67688684585239_2_alg».proof.Proof.LibLayout
import Idealize.ShloMosaic.Lib.ValueIdx
import Idealize.ShloMosaic.Lib.Pipeline.Value

noncomputable section

namespace Cert.KernelIdeal.EdgeBody

open Cert.KernelIdeal Cert.KernelIdeal.Gen
open Idealize.ShloMosaic Idealize.ShloMosaic.ValueIdx Cert.RowSpec Cert.LibLayout

variable (es : FVec Ideal S1000x128 .f32) (ec dg : FVec Ideal S1000x1 .f32)

/-- The stored block as the body's own operations on whole blocks. -/
theorem payload_eq :
    k0_pay1 (F := Ideal) ec es dg
      = mulf (divf (shapeCast S1000x128 es shapeCasts_S1000x128_S1000x128)
            (broadcastTo S1000x128 (maximumf (shapeCast S1000x1 ec shapeCasts_S1000x1_S1000x1) (broadcast S1000x1 (Scalar.ofBits .f32 0x3F800000#32))) broadcasts_S1000x1_S1000x128))
          (broadcastTo S1000x128 dg broadcasts_S1000x1_S1000x128) := rfl

/-- THE BODY AT `(p, q)`. -/
theorem payload_apply (p : Fin 1000) (q : Fin 128) :
    k0_pay1 (F := Ideal) ec es dg (ix2 p q) = edge (es (ix2 p q)) (ec (ix2 p (0 : Fin 1))) (dg (ix2 p (0 : Fin 1))) := by
  rw [payload_eq]
  unfold edge
  rw [mulf_apply, divf_apply, broadcastTo_a1_ab_apply, broadcastTo_a1_ab_apply, maximumf_apply, shapeCast_self, shapeCast_self,
    broadcast_apply]
  rfl

end Cert.KernelIdeal.EdgeBody

end
-- ==== Proof.EdgeValue.lean ====
/-
  The edge kernel's output array. The grid has 25 points; point `t` reads rows `1000·t … 1000·t + 999` of the
  summed features, of the incidence counts and of the degree weights, and writes back the same rows of the
  output. Each written block is the corresponding block of ONE array function (RowSpec.edgeG of the three arrays
  as the kernel finds them), and the 25 blocks cover the 25000 rows (the point that covers row `r` is
  `r / 1000`), so after the run the output array is that function.
-/
import proofs.«129156_j67688684585239_2_alg».proof.Proof.Gen.KernelIdeal.Frame
import proofs.«129156_j67688684585239_2_alg».proof.Proof.EdgeBody
import proofs.«129156_j67688684585239_2_alg».proof.Proof.RowSpec
import Idealize.ShloMosaic.Lib.Pipeline.Value
import Idealize.ShloMosaic.Lib.ValueIdx

set_option maxRecDepth 16384

noncomputable section

namespace Cert.KernelIdeal.EdgeValue

open Cert.KernelIdeal Cert.KernelIdeal.Gen
open Idealize.ShloMosaic Idealize.ShloMosaic.TcCoe Idealize.SL.Sem Idealize.ShloMosaic.ValueIdx Cert.RowSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The summed vertex features the kernel finds, by row and lane. -/
abbrev esum (c : Dev nD) : Fin 25000 → Fin 128 → EReal := fun r q => (V c main_v9 : S25000x128.Idx → EReal) (ix2 r q)
/-- The incidence counts it finds, by row. -/
abbrev ecnt (c : Dev nD) : Fin 25000 → EReal := fun r => (V c main_v13 : S25000x1.Idx → EReal) (ix2 r (0 : Fin 1))
/-- The degree weights it finds, by row. -/
abbrev degE (c : Dev nD) : Fin 25000 → EReal := fun r => (V c main_arg2 : S25000x1.Idx → EReal) (ix2 r (0 : Fin 1))

/-- The hyperedge features as one function of those three arrays. -/
def G (c : Dev nD) : S25000x128.Idx → EReal := edgeG (esum V c) (ecnt V c) (degE V c)

/-- Every window's block index at point `t` is `(t, 0)`: decided over the 25 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt_rows (t : Fin cfg0.N) (p : Fin 1000) : 1000 * t.val + p.val < 25000 := by
  have h := t.isLt
  have hN : cfg0.N = 25 := N_0
  omega

/-- Row `p` of point `t`'s block of summed features is row `1000·t + p` of the array. -/
theorem blk_esum (c : Dev nD) (t : Fin cfg0.N) (p : Fin 1000) (q : Fin 128) :
    (iblk0 V c 0 t : S1000x128.Idx → EReal) (ix2 p q) = esum V c ⟨1000 * t.val + p.val, lt_rows t p⟩ q := by
  obtain ⟨e0, e1, -⟩ := idx_facts t
  unfold iblk0
  rw [View.read_apply]
  show V c main_v9 _ = V c main_v9 _
  congr 1
  funext a
  apply Fin.ext
  match a with
  | ⟨0, _⟩ => show win0_0.index t 0 * 1000 + 1 * p.val = 1000 * t.val + p.val; rw [e0]; omega
  | ⟨1, _⟩ => show win0_0.index t 1 * 128 + 1 * q.val = q.val; rw [e1]; omega

/-- Likewise the counts … -/
theorem blk_ecnt (c : Dev nD) (t : Fin cfg0.N) (p : Fin 1000) :
    (iblk0 V c 1 t : S1000x1.Idx → EReal) (ix2 p (0 : Fin 1)) = ecnt V c ⟨1000 * t.val + p.val, lt_rows t p⟩ := by
  obtain ⟨-, -, e0, e1, -⟩ := idx_facts t
  unfold iblk0
  rw [View.read_apply]
  show V c main_v13 _ = V c main_v13 _
  congr 1
  funext a
  apply Fin.ext
  match a with
  | ⟨0, _⟩ => show win0_1.index t 0 * 1000 + 1 * p.val = 1000 * t.val + p.val; rw [e0]; omega
  | ⟨1, _⟩ => show win0_1.index t 1 * 1 + 1 * 0 = 0; rw [e1]

/-- … and the degree weights. -/
theorem blk_degE (c : Dev nD) (t : Fin cfg0.N) (p : Fin 1000) :
    (iblk0 V c 2 t : S1000x1.Idx → EReal) (ix2 p (0 : Fin 1)) = degE V c ⟨1000 * t.val + p.val, lt_rows t p⟩ := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t 0 * 1000 + 1 * p.val = 1000 * t.val + p.val; rw [e0]; omega
  | ⟨1, _⟩ => show win0_2.index t 1 * 1 + 1 * 0 = 0; rw [e1]

/-- Where entry `(p, q)` of point `t`'s output block sits in the array. -/
theorem emb_out (t : Fin cfg0.N) (p : Fin 1000) (q : Fin 128) :
    ((cfg0.win 3).blk t).view.emb (ix2 p q) = (ix2 ⟨1000 * t.val + p.val, lt_rows t p⟩ q : S25000x128.Idx) := by
  obtain ⟨-, -, -, -, -, -, e0, e1⟩ := idx_facts t
  funext a
  apply Fin.ext
  match a with
  | ⟨0, _⟩ => show win0_3.index t 0 * 1000 + 1 * p.val = 1000 * t.val + p.val; rw [e0]; omega
  | ⟨1, _⟩ => show win0_3.index t 1 * 128 + 1 * q.val = q.val; rw [e1]; omega

/-- WHAT POINT `t` WRITES BACK is block `t` of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S1000x1) hz, View.ld_unit_zero (S := S1000x128) hz]
  funext y
  obtain ⟨p, q, rfl⟩ : ∃ (p : Fin 1000) (q : Fin 128), y = ix2 p q := ⟨y 0, y 1, eq_ix2 y⟩
  refine (EdgeBody.payload_apply _ _ _ p q).trans ?_
  rw [blk_esum, blk_ecnt, blk_degE, View.read_apply, emb_out]
  rfl

/-- An index of the array is in point `t`'s block iff each coordinate is in the block's range on its axis. -/
theorem mem_blk (t : Fin cfg0.N) (i : S25000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v14).slice (win0_3.rect t)).set ↔ _
  rw [View.set_slice_whole, Rect.mem_set_unit]
  exact Iff.rfl

/-- The blocks cover the array: row `r` is in the block of point `r / 1000`. -/
theorem cover (i : S25000x128.Idx) :
    ∃ t : Fin cfg0.N, (cfg0.win 3).flush t = true ∧ i ∈ ((cfg0.win 3).blk t).view.set := by
  have hi0 : (i 0).val < 25000 := (i 0).isLt
  have hi1 : (i 1).val < 128 := (i 1).isLt
  have hN : cfg0.N = 25 := N_0
  have ht : (i 0).val / 1000 < cfg0.N := by rw [hN]; omega
  refine ⟨⟨(i 0).val / 1000, ht⟩, flush0_3 _, ?_⟩
  rw [mem_blk]
  obtain ⟨-, -, -, -, -, -, e0, e1⟩ := idx_facts ⟨(i 0).val / 1000, ht⟩
  intro a
  match a with
  | ⟨0, _⟩ =>
    show win0_3.index ⟨(i 0).val / 1000, ht⟩ 0 * 1000 ≤ (i 0).val ∧ (i 0).val < win0_3.index ⟨(i 0).val / 1000, ht⟩ 0 * 1000 + 1000
    rw [e0]
    show (i 0).val / 1000 * 1000 ≤ (i 0).val ∧ (i 0).val < (i 0).val / 1000 * 1000 + 1000
    omega
  | ⟨1, _⟩ =>
    show win0_3.index ⟨(i 0).val / 1000, ht⟩ 1 * 128 ≤ (i 1).val ∧ (i 1).val < win0_3.index ⟨(i 0).val / 1000, ht⟩ 1 * 128 + 128
    rw [e1]
    omega

/-- THE ARRAY after the edge kernel: `G`. -/
theorem final (c : Dev nD) : (dat0 V c).arrAt 3 cfg0.N = G V c :=
  (dat0 V c).arrAt_eq_of_cover 3 (G V c) (fun t _ => flushed_eq V c t) (cover)

end Cert.KernelIdeal.EdgeValue

end
-- ==== Proof.NodeBody.lean ====
/-
  The node kernel's arithmetic on one block of 4000 vertex rows, read entry by entry: at row `p` and lane `q`
  the stored value is the vertex-side result row (RowSpec.out) of the block's row `p` of aggregated features,
  its degree weight, its initial row, and the whole-array operands (layer-norm weight and bias as one row,
  the transposed matrix, the two mixing scalars as one-element arrays).
  The body is cut into the stages the specification names — the doubled row, its mean, the centred row, the
  reciprocal deviation, the normalised row, the blend — each first as an operation on whole blocks and then
  read at an index. The lane sums are sums over the 128 lanes of one row; the matrix product into the zero
  accumulator is, at `(p, q)`, the sum over `k` of the blend at `(p, k)` times the matrix at `(k, q)`;
  the changes of float format on the way into the product are the identity on extended reals.
-/
import proofs.«129156_j67688684585239_2_alg».proof.Proof.Gen.KernelIdeal.Skeleton
import proofs.«129156_j67688684585239_2_alg».proof.Proof.RowSpec
import proofs.«129156_j67688684585239_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.NodeBody

open Cert.KernelIdeal Cert.KernelIdeal.Gen
open Idealize.ShloMosaic Idealize.ShloMosaic.ValueIdx Cert.RowSpec Cert.LibLayout

variable (xv : FVec Ideal S4000x128 .f32) (dv : FVec Ideal S4000x1 .f32) (x0 : FVec Ideal S4000x128 .f32)
  (lw lb : FVec Ideal S1x128 .f32) (wt : FVec Ideal S128x128 .f32) (al be : FVec Ideal S1x1 .f32)

/-! ## The stages on whole blocks -/

/-- The degree-scaled rows added to themselves. -/
def vDbl : FVec Ideal S4000x128 .f32 :=
  addf (mulf (shapeCast S4000x128 xv shapeCasts_S4000x128_S4000x128) (broadcastTo S4000x128 dv broadcasts_S4000x1_S4000x128))
    (mulf (shapeCast S4000x128 xv shapeCasts_S4000x128_S4000x128) (broadcastTo S4000x128 dv broadcasts_S4000x1_S4000x128))

/-- Each row's mean, as a column. -/
def vMean : FVec Ideal S4000x1 .f32 :=
  divf (shapeCast S4000x1 (multiReduction .add [1] S4000 (vDbl xv dv) 0x00000000#32 reduces_S4000x128_S4000 (.inl rfl) rfl) shapeCasts_S4000_S4000x1)
    (broadcast S4000x1 (Scalar.ofBits .f32 0x43000000#32))

/-- The rows centred. -/
def vDev : FVec Ideal S4000x128 .f32 :=
  subf (vDbl xv dv) (broadcastTo S4000x128 (vMean xv dv) broadcasts_S4000x1_S4000x128)

/-- Each row's reciprocal standard deviation, as a column. -/
def vRstd : FVec Ideal S4000x1 .f32 :=
  rsqrt (addf (divf (shapeCast S4000x1 (multiReduction .add [1] S4000 (mulf (vDev xv dv) (vDev xv dv)) 0x00000000#32 reduces_S4000x128_S4000 (.inl rfl) rfl) shapeCasts_S4000_S4000x1)
      (broadcast S4000x1 (Scalar.ofBits .f32 0x43000000#32)))
    (broadcast S4000x1 (Scalar.ofBits .f32 0x3727C5AC#32)))

/-- The rows normalised, scaled by the weight row and shifted by the bias row. -/
def vNorm : FVec Ideal S4000x128 .f32 :=
  addf (mulf (mulf (vDev xv dv) (broadcastTo S4000x128 (vRstd xv dv) broadcasts_S4000x1_S4000x128))
      (broadcastTo S4000x128 (shapeCast S1x128 lw shapeCasts_S1x128_S1x128) broadcasts_S1x128_S4000x128))
    (broadcastTo S4000x128 (shapeCast S1x128 lb shapeCasts_S1x128_S1x128) broadcasts_S1x128_S4000x128)

/-- The blend of the normalised rows with the initial rows. -/
def vBlend : FVec Ideal S4000x128 .f32 :=
  addf (mulf (broadcastTo S4000x128 (subf (broadcast S1x1 (Scalar.ofBits .f32 0x3F800000#32)) (shapeCast S1x1 al shapeCasts_S1x1_S1x1)) broadcasts_S1x1_S4000x128) (vNorm xv dv lw lb))
    (mulf (broadcastTo S4000x128 (shapeCast S1x1 al shapeCasts_S1x1_S1x1) broadcasts_S1x1_S4000x128) x0)

/-- The blend's image under the matrix. -/
def vProd : FVec Ideal S4000x128 .f32 :=
  matmul dot_S4000x128_S128x128_S4000x128_1_0_0_1_n_n none (truncf .bf16 (vBlend xv dv x0 lw lb al) bitsLt_bf16_f32)
    (truncf .bf16 (shapeCast S128x128 wt shapeCasts_S128x128_S128x128) bitsLt_bf16_f32) (constant S4000x128 .f32 0x00000000#32)

/-- The stored block is the blend mixed with its image, stage by stage the body's own operations. -/
theorem payload_eq :
    k1_pay1 (F := Ideal) (k1_pay2 al) (k1_pay3 be) (k1_pay4 al xv dv lw lb) x0 wt
      = addf (mulf (broadcastTo S4000x128 (subf (broadcast S1x1 (Scalar.ofBits .f32 0x3F800000#32)) (shapeCast S1x1 be shapeCasts_S1x1_S1x1)) broadcasts_S1x1_S4000x128) (vBlend xv dv x0 lw lb al))
          (mulf (broadcastTo S4000x128 (shapeCast S1x1 be shapeCasts_S1x1_S1x1) broadcasts_S1x1_S4000x128) (vProd xv dv x0 lw lb wt al)) := rfl

/-! ## The stages at an index -/

variable (p : Fin 4000)

/-- The reciprocal square root at an index. -/
theorem rsqrt_apply {s : Shape} (x : FVec Ideal s .f32) (i : s.Idx) : rsqrt x i = Ideal.rsqrt (x i) := rfl

/-- A lane sum of a block, at row `p`: the sum of the row's 128 entries. -/
theorem laneSum_apply (src : FVec Ideal S4000x128 .f32) :
    multiReduction .add [1] S4000 src 0x00000000#32 reduces_S4000x128_S4000 (.inl rfl) rfl (ix1 p) = ∑ k : Fin 128, src (ix2 p k) :=
  rowSum_apply src _ _ _ _ p

theorem vDbl_apply (k : Fin 128) :
    vDbl xv dv (ix2 p k) = dbl (fun k => xv (ix2 p k)) (dv (ix2 p (0 : Fin 1))) k := by
  unfold vDbl dbl
  rw [addf_apply, mulf_apply, shapeCast_self, broadcastTo_a1_ab_apply]

theorem vMean_apply :
    vMean xv dv (ix2 p (0 : Fin 1)) = mean (fun k => xv (ix2 p k)) (dv (ix2 p (0 : Fin 1))) := by
  unfold vMean mean
  rw [divf_apply, shapeCast_a_a1_apply, broadcast_apply]
  refine congrArg (fun s => Ideal.div s lanes) ?_
  refine (laneSum_apply p (vDbl xv dv)).trans ?_
  exact Finset.sum_congr rfl fun k _ => vDbl_apply xv dv p k

theorem vDev_apply (k : Fin 128) :
    vDev xv dv (ix2 p k) = dev (fun k => xv (ix2 p k)) (dv (ix2 p (0 : Fin 1))) k := by
  unfold vDev dev
  rw [subf_apply, broadcastTo_a1_ab_apply, vDbl_apply, vMean_apply]

theorem vRstd_apply :
    vRstd xv dv (ix2 p (0 : Fin 1)) = rstd (fun k => xv (ix2 p k)) (dv (ix2 p (0 : Fin 1))) := by
  unfold vRstd rstd
  rw [rsqrt_apply, addf_apply, divf_apply, shapeCast_a_a1_apply, broadcast_apply, broadcast_apply]
  refine congrArg (fun s => Ideal.rsqrt (Ideal.div s lanes + eps)) ?_
  refine (laneSum_apply p (mulf (vDev xv dv) (vDev xv dv))).trans ?_
  refine Finset.sum_congr rfl fun k _ => ?_
  rw [mulf_apply, vDev_apply]

theorem vNorm_apply (k : Fin 128) :
    vNorm xv dv lw lb (ix2 p k)
      = RowSpec.norm (fun k => xv (ix2 p k)) (dv (ix2 p (0 : Fin 1))) (fun k => lw (ix2 (0 : Fin 1) k)) (fun k => lb (ix2 (0 : Fin 1) k)) k := by
  unfold vNorm RowSpec.norm
  rw [addf_apply, mulf_apply, mulf_apply, broadcastTo_a1_ab_apply, broadcastTo_1b_ab_apply, broadcastTo_1b_ab_apply,
    shapeCast_self, shapeCast_self, vDev_apply, vRstd_apply]

theorem vBlend_apply (k : Fin 128) :
    vBlend xv dv x0 lw lb al (ix2 p k)
      = blend (fun k => xv (ix2 p k)) (dv (ix2 p (0 : Fin 1))) (fun k => x0 (ix2 p k)) (fun k => lw (ix2 (0 : Fin 1) k))
          (fun k => lb (ix2 (0 : Fin 1) k)) (al (ix2 (0 : Fin 1) (0 : Fin 1))) k := by
  unfold vBlend blend
  rw [addf_apply, mulf_apply, mulf_apply, broadcastTo_11_ab_apply, broadcastTo_11_ab_apply, subf_apply, broadcast_apply,
    shapeCast_self, vNorm_apply]
  rfl

/-! ## The matrix product at an index -/

theorem lhs_row (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_lane (i : S4000x128.Idx) (c : dot_S4000x128_S128x128_S4000x128_1_0_0_1_n_n.contr.Idx) :
    (dot_S4000x128_S128x128_S4000x128_1_0_0_1_n_n.lhsIdx i c 1).val = (c ⟨0, by decide⟩).val :=
  dot_S4000x128_S128x128_S4000x128_1_0_0_1_n_n.lhsIdx_val_of_single rfl i c
theorem rhs_row (i : S4000x128.Idx) (c : dot_S4000x128_S128x128_S4000x128_1_0_0_1_n_n.contr.Idx) :
    (dot_S4000x128_S128x128_S4000x128_1_0_0_1_n_n.rhsIdx i c 0).val = (c ⟨0, by decide⟩).val :=
  dot_S4000x128_S128x128_S4000x128_1_0_0_1_n_n.rhsIdx_val_of_single rfl i c
theorem rhs_lane (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The blend's image under the matrix, at `(p, q)`: the sum over the lanes `k` of the blend at `(p, k)` times
    the matrix at `(k, q)`. -/
theorem vProd_apply (q : Fin 128) :
    vProd xv dv x0 lw lb wt al (ix2 p q) = ∑ k : Fin 128, vBlend xv dv x0 lw lb al (ix2 p k) * wt (ix2 k q) := by
  unfold vProd
  simp only [matmul]
  refine (Ideal.matmul_constant_zero_apply dot_S4000x128_S128x128_S4000x128_1_0_0_1_n_n none _ _ (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_lane _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_lane _ _)
  rw [el, er, truncf_apply, truncf_apply, shapeCast_self]

/-! ## The stored block at an index -/

/-- THE BODY AT `(p, q)`: the vertex-side result row of the block's row `p`, at lane `q`. -/
theorem payload_apply (q : Fin 128) :
    k1_pay1 (F := Ideal) (k1_pay2 al) (k1_pay3 be) (k1_pay4 al xv dv lw lb) x0 wt (ix2 p q)
      = out (fun k => xv (ix2 p k)) (dv (ix2 p (0 : Fin 1))) (fun k => x0 (ix2 p k)) (fun k => lw (ix2 (0 : Fin 1) k))
          (fun k => lb (ix2 (0 : Fin 1) k)) (fun k q => wt (ix2 k q)) (al (ix2 (0 : Fin 1) (0 : Fin 1))) (be (ix2 (0 : Fin 1) (0 : Fin 1))) q := by
  rw [payload_eq]
  unfold out
  rw [addf_apply, mulf_apply, mulf_apply, broadcastTo_11_ab_apply, broadcastTo_11_ab_apply, subf_apply, broadcast_apply,
    shapeCast_self, vBlend_apply, vProd_apply]
  simp only [vBlend_apply]
  rfl

end Cert.KernelIdeal.NodeBody

end
-- ==== Proof.NodeValue.lean ====
/-
  The node kernel's output array. The grid has 25 points; point `t` reads rows `4000·t … 4000·t + 3999` of the
  aggregated vertex features, of the vertex degree weights and of the initial features, and the whole of the small
  operands (the layer-norm weight and bias rows, the transposed matrix, the two mixing scalars), and writes back the
  same rows of the output. Each written block is the corresponding block of ONE array function (RowSpec.nodeG of the
  arrays as the kernel finds them), and the 25 blocks cover the 100000 rows (row `r` is in the block of point
  `r / 4000`), so after the run the output array is that function.
-/
import proofs.«129156_j67688684585239_2_alg».proof.Proof.Gen.KernelIdeal.Frame
import proofs.«129156_j67688684585239_2_alg».proof.Proof.NodeBody
import proofs.«129156_j67688684585239_2_alg».proof.Proof.RowSpec
import Idealize.ShloMosaic.Lib.Pipeline.Value
import Idealize.ShloMosaic.Lib.ValueIdx

set_option maxRecDepth 16384

noncomputable section

namespace Cert.KernelIdeal.NodeValue

open Cert.KernelIdeal Cert.KernelIdeal.Gen
open Idealize.ShloMosaic Idealize.ShloMosaic.TcCoe Idealize.SL.Sem Idealize.ShloMosaic.ValueIdx Cert.RowSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The aggregated vertex features the kernel finds, by row and lane. -/
abbrev xvA (c : Dev nD) : Fin 100000 → Fin 128 → EReal := fun r k => (V c main_v24 : S100000x128.Idx → EReal) (ix2 r k)
/-- The vertex degree weights, by row. -/
abbrev dvA (c : Dev nD) : Fin 100000 → EReal := fun r => (V c main_arg3 : S100000x1.Idx → EReal) (ix2 r (0 : Fin 1))
/-- The initial features, by row and lane. -/
abbrev x0A (c : Dev nD) : Fin 100000 → Fin 128 → EReal := fun r k => (V c main_arg1 : S100000x128.Idx → EReal) (ix2 r k)
/-- The layer-norm weight row, by lane. -/
abbrev lwA (c : Dev nD) : Fin 128 → EReal := fun k => (V c main_v25 : S1x128.Idx → EReal) (ix2 (0 : Fin 1) k)
/-- The layer-norm bias row, by lane. -/
abbrev lbA (c : Dev nD) : Fin 128 → EReal := fun k => (V c main_v26 : S1x128.Idx → EReal) (ix2 (0 : Fin 1) k)
/-- The transposed matrix, by row and lane. -/
abbrev wtA (c : Dev nD) : Fin 128 → Fin 128 → EReal := fun k q => (V c main_v27 : S128x128.Idx → EReal) (ix2 k q)
/-- The first mixing scalar. -/
abbrev alA (c : Dev nD) : EReal := (V c main_v28 : S1x1.Idx → EReal) (ix2 (0 : Fin 1) (0 : Fin 1))
/-- The second mixing scalar. -/
abbrev beA (c : Dev nD) : EReal := (V c main_v29 : S1x1.Idx → EReal) (ix2 (0 : Fin 1) (0 : Fin 1))

/-- The result as one function of those arrays. -/
def G (c : Dev nD) : S100000x128.Idx → EReal :=
  nodeG (xvA V c) (dvA V c) (x0A V c) (lwA V c) (lbA V c) (wtA V c) (alA V c) (beA V c)

/-- The row windows' block index at point `t` is `(t, 0)`, the whole-array windows' `(0, 0)`: decided over the 25 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem lt_rows (t : Fin cfg1.N) (p : Fin 4000) : 4000 * t.val + p.val < 100000 := by
  have h := t.isLt
  have hN : cfg1.N = 25 := N_1
  omega

/-- Row `p` of point `t`'s block of aggregated features is row `4000·t + p` of the array. -/
theorem blk_xv (c : Dev nD) (t : Fin cfg1.N) (p : Fin 4000) (k : Fin 128) :
    (iblk1 V c 0 t : S4000x128.Idx → EReal) (ix2 p k) = xvA V c ⟨4000 * t.val + p.val, lt_rows t p⟩ k := by
  obtain ⟨e0, e1, -⟩ := idx_facts t
  unfold iblk1
  rw [View.read_apply]
  show V c main_v24 _ = V c main_v24 _
  congr 1
  funext a
  apply Fin.ext
  match a with
  | ⟨0, _⟩ => show win1_0.index t 0 * 4000 + 1 * p.val = 4000 * t.val + p.val; rw [e0]; omega
  | ⟨1, _⟩ => show win1_0.index t 1 * 128 + 1 * k.val = k.val; rw [e1]; omega

theorem blk_dv (c : Dev nD) (t : Fin cfg1.N) (p : Fin 4000) :
    (iblk1 V c 1 t : S4000x1.Idx → EReal) (ix2 p (0 : Fin 1)) = dvA V c ⟨4000 * t.val + p.val, lt_rows t p⟩ := by
  obtain ⟨-, -, e0, e1, -⟩ := idx_facts t
  unfold iblk1
  rw [View.read_apply]
  show V c main_arg3 _ = V c main_arg3 _
  congr 1
  funext a
  apply Fin.ext
  match a with
  | ⟨0, _⟩ => show win1_1.index t 0 * 4000 + 1 * p.val = 4000 * t.val + p.val; rw [e0]; omega
  | ⟨1, _⟩ => show win1_1.index t 1 * 1 + 1 * 0 = 0; rw [e1]

theorem blk_x0 (c : Dev nD) (t : Fin cfg1.N) (p : Fin 4000) (k : Fin 128) :
    (iblk1 V c 2 t : S4000x128.Idx → EReal) (ix2 p k) = x0A V c ⟨4000 * t.val + p.val, lt_rows t p⟩ k := by
  obtain ⟨-, -, -, -, e0, e1, -⟩ := idx_facts t
  unfold iblk1
  rw [View.read_apply]
  show V c main_arg1 _ = V c main_arg1 _
  congr 1
  funext a
  apply Fin.ext
  match a with
  | ⟨0, _⟩ => show win1_2.index t 0 * 4000 + 1 * p.val = 4000 * t.val + p.val; rw [e0]; omega
  | ⟨1, _⟩ => show win1_2.index t 1 * 128 + 1 * k.val = k.val; rw [e1]; omega

/-- The whole-array windows' one block is the array. -/
theorem blk_lw (c : Dev nD) (t : Fin cfg1.N) (k : Fin 128) :
    (iblk1 V c 3 t : S1x128.Idx → EReal) (ix2 (0 : Fin 1) k) = lwA V c k := by
  obtain ⟨-, -, -, -, -, -, e0, e1, -⟩ := idx_facts t
  unfold iblk1
  rw [View.read_apply]
  show V c main_v25 _ = V c main_v25 _
  congr 1
  funext a
  apply Fin.ext
  match a with
  | ⟨0, _⟩ => show win1_3.index t 0 * 1 + 1 * 0 = 0; rw [e0]
  | ⟨1, _⟩ => show win1_3.index t 1 * 128 + 1 * k.val = k.val; rw [e1]; omega

theorem blk_lb (c : Dev nD) (t : Fin cfg1.N) (k : Fin 128) :
    (iblk1 V c 4 t : S1x128.Idx → EReal) (ix2 (0 : Fin 1) k) = lbA V c k := by
  obtain ⟨-, -, -, -, -, -, -, -, e0, e1, -⟩ := idx_facts t
  unfold iblk1
  rw [View.read_apply]
  show V c main_v26 _ = V c main_v26 _
  congr 1
  funext a
  apply Fin.ext
  match a with
  | ⟨0, _⟩ => show win1_4.index t 0 * 1 + 1 * 0 = 0; rw [e0]
  | ⟨1, _⟩ => show win1_4.index t 1 * 128 + 1 * k.val = k.val; rw [e1]; omega

theorem blk_wt (c : Dev nD) (t : Fin cfg1.N) (k q : Fin 128) :
    (iblk1 V c 5 t : S128x128.Idx → EReal) (ix2 k q) = wtA V c k q := by
  obtain ⟨-, -, -, -, -, -, -, -, -, -, e0, e1, -⟩ := idx_facts t
  unfold iblk1
  rw [View.read_apply]
  show V c main_v27 _ = V c main_v27 _
  congr 1
  funext a
  apply Fin.ext
  match a with
  | ⟨0, _⟩ => show win1_5.index t 0 * 128 + 1 * k.val = k.val; rw [e0]; omega
  | ⟨1, _⟩ => show win1_5.index t 1 * 128 + 1 * q.val = q.val; rw [e1]; omega

theorem blk_al (c : Dev nD) (t : Fin cfg1.N) :
    (iblk1 V c 6 t : S1x1.Idx → EReal) (ix2 (0 : Fin 1) (0 : Fin 1)) = alA V c := by
  obtain ⟨-, -, -, -, -, -, -, -, -, -, -, -, e0, e1, -⟩ := idx_facts t
  unfold iblk1
  rw [View.read_apply]
  show V c main_v28 _ = V c main_v28 _
  congr 1
  funext a
  apply Fin.ext
  match a with
  | ⟨0, _⟩ => show win1_6.index t 0 * 1 + 1 * 0 = 0; rw [e0]
  | ⟨1, _⟩ => show win1_6.index t 1 * 1 + 1 * 0 = 0; rw [e1]

theorem blk_be (c : Dev nD) (t : Fin cfg1.N) :
    (iblk1 V c 7 t : S1x1.Idx → EReal) (ix2 (0 : Fin 1) (0 : Fin 1)) = beA V c := by
  obtain ⟨-, -, -, -, -, -, -, -, -, -, -, -, -, -, e0, e1, -⟩ := idx_facts t
  unfold iblk1
  rw [View.read_apply]
  show V c main_v29 _ = V c main_v29 _
  congr 1
  funext a
  apply Fin.ext
  match a with
  | ⟨0, _⟩ => show win1_7.index t 0 * 1 + 1 * 0 = 0; rw [e0]
  | ⟨1, _⟩ => show win1_7.index t 1 * 1 + 1 * 0 = 0; rw [e1]

/-- Where entry `(p, q)` of point `t`'s output block sits in the array. -/
theorem emb_out (t : Fin cfg1.N) (p : Fin 4000) (q : Fin 128) :
    ((cfg1.win 8).blk t).view.emb (ix2 p q) = (ix2 ⟨4000 * t.val + p.val, lt_rows t p⟩ q : S100000x128.Idx) := by
  obtain ⟨-, -, -, -, -, -, -, -, -, -, -, -, -, -, -, -, e0, e1⟩ := idx_facts t
  funext a
  apply Fin.ext
  match a with
  | ⟨0, _⟩ => show win1_8.index t 0 * 4000 + 1 * p.val = 4000 * t.val + p.val; rw [e0]; omega
  | ⟨1, _⟩ => show win1_8.index t 1 * 128 + 1 * q.val = q.val; rw [e1]; omega

/-- WHAT POINT `t` WRITES BACK is block `t` of `G`. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz]
  simp only [View.ld_unit_zero (S := S1x1) hz, View.ld_unit_zero (S := S4000x128) hz, View.ld_unit_zero (S := S4000x1) hz,
    View.ld_unit_zero (S := S1x128) hz, View.ld_unit_zero (S := S128x128) hz]
  funext y
  obtain ⟨p, q, rfl⟩ : ∃ (p : Fin 4000) (q : Fin 128), y = ix2 p q := ⟨y 0, y 1, eq_ix2 y⟩
  refine (NodeBody.payload_apply (iblk1 V c 0 t) (iblk1 V c 1 t) (iblk1 V c 2 t) (iblk1 V c 3 t) (iblk1 V c 4 t) (iblk1 V c 5 t)
    (iblk1 V c 6 t) (iblk1 V c 7 t) p q).trans ?_
  rw [View.read_apply, emb_out]
  have h0 : (fun k => (iblk1 V c 0 t : S4000x128.Idx → EReal) (ix2 p k)) = xvA V c ⟨4000 * t.val + p.val, lt_rows t p⟩ :=
    funext fun k => blk_xv V c t p k
  have h2 : (fun k => (iblk1 V c 2 t : S4000x128.Idx → EReal) (ix2 p k)) = x0A V c ⟨4000 * t.val + p.val, lt_rows t p⟩ :=
    funext fun k => blk_x0 V c t p k
  have h3 : (fun k => (iblk1 V c 3 t : S1x128.Idx → EReal) (ix2 (0 : Fin 1) k)) = lwA V c := funext fun k => blk_lw V c t k
  have h4 : (fun k => (iblk1 V c 4 t : S1x128.Idx → EReal) (ix2 (0 : Fin 1) k)) = lbA V c := funext fun k => blk_lb V c t k
  have h5 : (fun k q => (iblk1 V c 5 t : S128x128.Idx → EReal) (ix2 k q)) = wtA V c := funext fun k => funext fun q => blk_wt V c t k q
  exact (congr (congr (congr (congr (congr (congr (congr (congrArg out h0) (blk_dv V c t p)) h2) h3) h4) h5) (blk_al V c t)) (blk_be V c t)) ▸ rfl

/-- An index of the array is in point `t`'s block iff each coordinate is in the block's range on its axis. -/
theorem mem_blk (t : Fin cfg1.N) (i : S100000x128.Idx) :
    i ∈ ((cfg1.win 8).blk t).view.set ↔ ∀ a : Fin 2, win1_8.index t a * S4000x128.size a ≤ (i a).val ∧ (i a).val < win1_8.index t a * S4000x128.size a + S4000x128.size a := by
  show i ∈ ((View.whole main_v30).slice (win1_8.rect t)).set ↔ _
  rw [View.set_slice_whole, Rect.mem_set_unit]
  exact Iff.rfl

/-- The blocks cover the array: row `r` is in the block of point `r / 4000`. -/
theorem cover (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 25 := N_1
  have ht : (i 0).val / 4000 < cfg1.N := by rw [hN]; omega
  refine ⟨⟨(i 0).val / 4000, ht⟩, flush1_8 _, ?_⟩
  rw [mem_blk]
  obtain ⟨-, -, -, -, -, -, -, -, -, -, -, -, -, -, -, -, e0, e1⟩ := idx_facts ⟨(i 0).val / 4000, ht⟩
  intro a
  match a with
  | ⟨0, _⟩ =>
    show win1_8.index ⟨(i 0).val / 4000, ht⟩ 0 * 4000 ≤ (i 0).val ∧ (i 0).val < win1_8.index ⟨(i 0).val / 4000, ht⟩ 0 * 4000 + 4000
    rw [e0]
    show (i 0).val / 4000 * 4000 ≤ (i 0).val ∧ (i 0).val < (i 0).val / 4000 * 4000 + 4000
    omega
  | ⟨1, _⟩ =>
    show win1_8.index ⟨(i 0).val / 4000, ht⟩ 1 * 128 ≤ (i 1).val ∧ (i 1).val < win1_8.index ⟨(i 0).val / 4000, ht⟩ 1 * 128 + 128
    rw [e1]
    omega

/-- THE ARRAY after the node kernel: `G`. -/
theorem final (c : Dev nD) : (dat1 V c).arrAt 8 cfg1.N = G V c :=
  (dat1 V c).arrAt_eq_of_cover 8 (G V c) (fun t _ => flushed_eq V c t) (cover)

end Cert.KernelIdeal.NodeValue

end
-- ==== Proof.HostValue.lean ====
/-
  The host lines around the two kernels, read as values. Before the edge kernel: the vertex features gathered
  along the incidence pairs and segment-summed into the hyperedges, and the incidence counts, are the very terms
  the reference computes (the same gather and scatter-add of the same arguments). Between the kernels: the
  hyperedge features gathered back along the pairs and segment-summed into the vertices are the reference's
  term of the hyperedge features; the layer-norm weight and bias are recast as one row, the matrix is transposed,
  the two mixing scalars are recast as one-element arrays; no line writes an argument.
-/
import proofs.«129156_j67688684585239_2_alg».proof.Proof.Gen.KernelIdeal.Frame
import proofs.«129156_j67688684585239_2_alg».proof.Proof.Gen.ReferenceIdeal.Read
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the edge kernel -/

/-- The summed vertex features the edge kernel finds are the reference's. -/
theorem entry_esum (c : Dev nD) :
    V1 m ρ c main_v9 = Cert.ReferenceIdeal.Read.val_main_v9 (F := Ideal) (m ((c.tc : Thread nD τ).loc main_arg0)) (m ((c.tc : Thread nD τ).loc main_arg9)) (m ((c.tc : Thread nD τ).loc main_arg10)) := by
  dsimp only [V1, W1, hostOps0]
  after_results
  rfl

/-- The incidence counts it finds are the reference's. -/
theorem entry_ecnt (c : Dev nD) :
    V1 m ρ c main_v13 = Cert.ReferenceIdeal.Read.val_main_v13 (F := Ideal) (m ((c.tc : Thread nD τ).loc main_arg10)) := by
  dsimp only [V1, W1, hostOps0]
  after_results
  rfl

/-- The degree weights it finds are the argument. -/
theorem entry_degE (c : Dev nD) : V1 m ρ c main_arg2 = m ((c.tc : Thread nD τ).loc main_arg2) := by
  dsimp only [V1, W1, hostOps0]
  after_results

/-! ## Between the kernels: the arguments are as launched -/

theorem W2_arg1 (c : Dev nD) : W2 m ρ c (Proc.devRef .tc main_arg1) = m ((c.tc : Thread nD τ).loc main_arg1) :=
  (W2_of_ne m ρ c main_arg1 (by decide)).trans (by dsimp only [W1, hostOps0]; after_results)
theorem W2_arg3 (c : Dev nD) : W2 m ρ c (Proc.devRef .tc main_arg3) = m ((c.tc : Thread nD τ).loc main_arg3) :=
  (W2_of_ne m ρ c main_arg3 (by decide)).trans (by dsimp only [W1, hostOps0]; after_results)
theorem W2_arg4 (c : Dev nD) : W2 m ρ c (Proc.devRef .tc main_arg4) = m ((c.tc : Thread nD τ).loc main_arg4) :=
  (W2_of_ne m ρ c main_arg4 (by decide)).trans (by dsimp only [W1, hostOps0]; after_results)
theorem W2_arg5 (c : Dev nD) : W2 m ρ c (Proc.devRef .tc main_arg5) = m ((c.tc : Thread nD τ).loc main_arg5) :=
  (W2_of_ne m ρ c main_arg5 (by decide)).trans (by dsimp only [W1, hostOps0]; after_results)
theorem W2_arg6 (c : Dev nD) : W2 m ρ c (Proc.devRef .tc main_arg6) = m ((c.tc : Thread nD τ).loc main_arg6) :=
  (W2_of_ne m ρ c main_arg6 (by decide)).trans (by dsimp only [W1, hostOps0]; after_results)
theorem W2_arg7 (c : Dev nD) : W2 m ρ c (Proc.devRef .tc main_arg7) = m ((c.tc : Thread nD τ).loc main_arg7) :=
  (W2_of_ne m ρ c main_arg7 (by decide)).trans (by dsimp only [W1, hostOps0]; after_results)
theorem W2_arg8 (c : Dev nD) : W2 m ρ c (Proc.devRef .tc main_arg8) = m ((c.tc : Thread nD τ).loc main_arg8) :=
  (W2_of_ne m ρ c main_arg8 (by decide)).trans (by dsimp only [W1, hostOps0]; after_results)
theorem W2_arg9 (c : Dev nD) : W2 m ρ c (Proc.devRef .tc main_arg9) = m ((c.tc : Thread nD τ).loc main_arg9) :=
  (W2_of_ne m ρ c main_arg9 (by decide)).trans (by dsimp only [W1, hostOps0]; after_results)
theorem W2_arg10 (c : Dev nD) : W2 m ρ c (Proc.devRef .tc main_arg10) = m ((c.tc : Thread nD τ).loc main_arg10) :=
  (W2_of_ne m ρ c main_arg10 (by decide)).trans (by dsimp only [W1, hostOps0]; after_results)

/-! ## Before the node kernel -/

/-- The aggregated vertex features the node kernel finds are the reference's term of the hyperedge features,
    once the edge kernel's output is known to be the reference's hyperedge features. -/
theorem entry_xv (c : Dev nD)
    (hE : W2 m ρ c (Proc.devRef .tc main_v14) = Cert.ReferenceIdeal.Read.val_main_v19 (F := Ideal) (m ((c.tc : Thread nD τ).loc main_arg0)) (m ((c.tc : Thread nD τ).loc main_arg2)) (m ((c.tc : Thread nD τ).loc main_arg9)) (m ((c.tc : Thread nD τ).loc main_arg10))) :
    V3 m ρ c main_v24 = Cert.ReferenceIdeal.Read.val_main_v29 (F := Ideal) (m ((c.tc : Thread nD τ).loc main_arg0)) (m ((c.tc : Thread nD τ).loc main_arg2)) (m ((c.tc : Thread nD τ).loc main_arg9)) (m ((c.tc : Thread nD τ).loc main_arg10)) := by
  dsimp only [V3, W3, hostOps1]
  after_results
  rw [hE, W2_arg9, W2_arg10]
  rfl

theorem entry_dv (c : Dev nD) : V3 m ρ c main_arg3 = m ((c.tc : Thread nD τ).loc main_arg3) := by
  dsimp only [V3, W3, hostOps1]
  after_results
  exact W2_arg3 m ρ c

theorem entry_x0 (c : Dev nD) : V3 m ρ c main_arg1 = m ((c.tc : Thread nD τ).loc main_arg1) := by
  dsimp only [V3, W3, hostOps1]
  after_results
  exact W2_arg1 m ρ c

/-- The layer-norm weight as one row. -/
theorem entry_lw (c : Dev nD) : V3 m ρ c main_v25 = shapeCast S1x128 (m ((c.tc : Thread nD τ).loc main_arg7)) shapeCasts_S128_S1x128 := by
  dsimp only [V3, W3, hostOps1]
  after_results
  rw [W2_arg7]
  rfl

/-- The layer-norm bias as one row. -/
theorem entry_lb (c : Dev nD) : V3 m ρ c main_v26 = shapeCast S1x128 (m ((c.tc : Thread nD τ).loc main_arg8)) shapeCasts_S128_S1x128 := by
  dsimp only [V3, W3, hostOps1]
  after_results
  rw [W2_arg8]
  rfl

/-- The matrix transposed. -/
theorem entry_wt (c : Dev nD) : V3 m ρ c main_v27 = transpose S128x128 [1, 0] (m ((c.tc : Thread nD τ).loc main_arg4)) transposes_S128x128_S128x128_1_0 := by
  dsimp only [V3, W3, hostOps1]
  after_results
  rw [W2_arg4]

/-- The first mixing scalar as a one-element array. -/
theorem entry_al (c : Dev nD) : V3 m ρ c main_v28 = shapeCast S1x1 (m ((c.tc : Thread nD τ).loc main_arg5)) shapeCasts_S_S1x1 := by
  dsimp only [V3, W3, hostOps1]
  after_results
  rw [W2_arg5]
  rfl

/-- The second mixing scalar as a one-element array. -/
theorem entry_be (c : Dev nD) : V3 m ρ c main_v29 = shapeCast S1x1 (m ((c.tc : Thread nD τ).loc main_arg6)) shapeCasts_S_S1x1 := by
  dsimp only [V3, W3, hostOps1]
  after_results
  rw [W2_arg6]
  rfl

end Cert.KernelIdeal.HostValue

end
-- ==== Proof.RefValue.lean ====
/-
  The reference program read row by row. Its host lines compute, from the summed vertex features `S`, the incidence
  counts `C` and the edge degree weights, the hyperedge features `S / max(C, 1) · degE` entry by entry; and from the
  aggregated vertex features, the vertex degree weights, the initial features, the layer-norm weight and bias, the
  matrix and the two mixing scalars, the vertex-side result row by row: the doubled row, its mean over the 128 lanes,
  the centred row, the reciprocal deviation, the normalised row, the blend, and the blend mixed with its product
  against the transposed matrix. The lane sums start from the zero word, which is the extended real 0; the
  broadcasts read their operand at the row, at the lane, or at its one entry.
-/
import proofs.«129156_j67688684585239_2_alg».proof.Proof.Gen.ReferenceIdeal.Read
import proofs.«129156_j67688684585239_2_alg».proof.Proof.RowSpec
import Idealize.ShloMosaic.Lib.ValueIdx
import Idealize.ShloMosaic.PureOps.Ideal.Laws

noncomputable section

open scoped BigOperators

namespace Cert.ReferenceIdeal.RowValue

open Cert.ReferenceIdeal Cert.ReferenceIdeal.Read
open Idealize.ShloMosaic Idealize.ShloMosaic.ValueIdx Cert.RowSpec

variable (x0 x1 : (⟨S100000x128, .f32⟩ : BufTy).Contents (Elt Ideal)) (x2 : (⟨S25000x1, .f32⟩ : BufTy).Contents (Elt Ideal))
  (x3 : (⟨S100000x1, .f32⟩ : BufTy).Contents (Elt Ideal)) (x4 : (⟨S128x128, .f32⟩ : BufTy).Contents (Elt Ideal))
  (x5 x6 : (⟨S_, .f32⟩ : BufTy).Contents (Elt Ideal)) (x7 x8 : (⟨S128, .f32⟩ : BufTy).Contents (Elt Ideal))
  (x9 x10 : (⟨S640000, .i32⟩ : BufTy).Contents (Elt Ideal))

/-! ## The hyperedge features -/

/-- The reference's hyperedge features are `edgeG` of its summed features, counts and the degree weights. -/
theorem edge_eq :
    val_main_v19 (F := Ideal) x0 x2 x9 x10
      = edgeG (fun r q => val_main_v9 (F := Ideal) x0 x9 x10 (ix2 r q)) (fun r => val_main_v13 (F := Ideal) x10 (ix2 r (0 : Fin 1)))
          (fun r => x2 (ix2 r (0 : Fin 1))) := by
  funext i
  obtain ⟨r, q, rfl⟩ : ∃ (r : Fin 25000) (q : Fin 128), i = ix2 r q := ⟨i 0, i 1, eq_ix2 i⟩
  rw [edgeG_ix2, val_main_v19_apply, val_main_v17_apply, val_main_v16_apply, val_main_v15_apply, val_main_v14_apply,
    val_main_cst_3_apply, val_main_v18_apply]
  have e16 : idx_main_v16 (ix2 r q) = ix2 r (0 : Fin 1) := funext fun a => by match a with | ⟨0, _⟩ => rfl | ⟨1, _⟩ => rfl
  have e18 : idx_main_v18 (ix2 r q) = ix2 r (0 : Fin 1) := funext fun a => by match a with | ⟨0, _⟩ => rfl | ⟨1, _⟩ => rfl
  rw [e16, e18]
  rfl

/-! ## The vertex-side result, stage by stage -/

/-- The reference's aggregated vertex features, by row and lane. -/
abbrev XV : Fin 100000 → Fin 128 → EReal := fun r k => val_main_v29 (F := Ideal) x0 x2 x9 x10 (ix2 r k)

variable (r : Fin 100000)

theorem dbl_eq (k : Fin 128) :
    val_main_v32 (F := Ideal) x0 x2 x3 x9 x10 (ix2 r k) = dbl (XV x0 x2 x9 x10 r) (x3 (ix2 r (0 : Fin 1))) k := by
  rw [val_main_v32_apply, val_main_v31_apply, val_main_v30_apply]
  have e : idx_main_v30 (ix2 r k) = ix2 r (0 : Fin 1) := funext fun a => by match a with | ⟨0, _⟩ => rfl | ⟨1, _⟩ => rfl
  rw [e]
  rfl

theorem mean_eq :
    val_main_v36 (F := Ideal) x0 x2 x3 x9 x10 (ix2 r (0 : Fin 1)) = mean (XV x0 x2 x9 x10 r) (x3 (ix2 r (0 : Fin 1))) := by
  rw [val_main_v36_apply, val_main_v34_apply, val_main_v33_apply, val_main_v35_apply, val_main_cst_8_apply, val_main_cst_7_apply]
  unfold mean
  refine congrArg (fun s => Ideal.div s lanes) ?_
  refine (congrArg (· + _) Ideal.ofBits_zero_f32).trans ((zero_add _).trans ?_)
  refine Finset.sum_congr rfl fun k _ => ?_
  have e : idx_main_v33 (idx_main_v34 (ix2 r (0 : Fin 1))) k = ix2 r k := funext fun a => by match a with | ⟨0, _⟩ => rfl | ⟨1, _⟩ => rfl
  rw [e]
  exact dbl_eq x0 x2 x3 x9 x10 r k

theorem dev_eq (k : Fin 128) :
    val_main_v38 (F := Ideal) x0 x2 x3 x9 x10 (ix2 r k) = dev (XV x0 x2 x9 x10 r) (x3 (ix2 r (0 : Fin 1))) k := by
  rw [val_main_v38_apply, val_main_v37_apply]
  have e : idx_main_v37 (ix2 r k) = ix2 r (0 : Fin 1) := funext fun a => by match a with | ⟨0, _⟩ => rfl | ⟨1, _⟩ => rfl
  rw [e, dbl_eq, mean_eq]
  rfl

/-- The second centred row the reference computes is the same. -/
theorem dev_eq' (k : Fin 128) :
    val_main_v45 (F := Ideal) x0 x2 x3 x9 x10 (ix2 r k) = dev (XV x0 x2 x9 x10 r) (x3 (ix2 r (0 : Fin 1))) k := by
  rw [val_main_v45_apply, val_main_v44_apply]
  have e : idx_main_v44 (ix2 r k) = ix2 r (0 : Fin 1) := funext fun a => by match a with | ⟨0, _⟩ => rfl | ⟨1, _⟩ => rfl
  rw [e, dbl_eq, mean_eq]
  rfl

theorem rstd_eq :
    val_main_v48 (F := Ideal) x0 x2 x3 x9 x10 (ix2 r (0 : Fin 1)) = rstd (XV x0 x2 x9 x10 r) (x3 (ix2 r (0 : Fin 1))) := by
  rw [val_main_v48_apply, val_main_v47_apply, val_main_v43_apply, val_main_v41_apply, val_main_v40_apply, val_main_v42_apply,
    val_main_cst_10_apply, val_main_cst_9_apply, val_main_v46_apply, val_main_cst_11_apply]
  unfold rstd
  refine congrArg (fun s => Ideal.rsqrt (Ideal.div s lanes + eps)) ?_
  refine (congrArg (· + _) Ideal.ofBits_zero_f32).trans ((zero_add _).trans ?_)
  refine Finset.sum_congr rfl fun k _ => ?_
  have e : idx_main_v40 (idx_main_v41 (ix2 r (0 : Fin 1))) k = ix2 r k := funext fun a => by match a with | ⟨0, _⟩ => rfl | ⟨1, _⟩ => rfl
  rw [e, val_main_v39_apply, dev_eq]
  rfl

theorem norm_eq (k : Fin 128) :
    val_main_v56 (F := Ideal) x0 x2 x3 x7 x8 x9 x10 (ix2 r k)
      = RowSpec.norm (XV x0 x2 x9 x10 r) (x3 (ix2 r (0 : Fin 1))) (fun k => x7 (ix1 k)) (fun k => x8 (ix1 k)) k := by
  rw [val_main_v56_apply, val_main_v53_apply, val_main_v50_apply, val_main_v49_apply, val_main_v52_apply, val_main_v51_apply,
    val_main_v55_apply, val_main_v54_apply]
  have e49 : idx_main_v49 (ix2 r k) = ix2 r (0 : Fin 1) := funext fun a => by match a with | ⟨0, _⟩ => rfl | ⟨1, _⟩ => rfl
  have e51 : idx_main_v51 (idx_main_v52 (ix2 r k)) = ix1 k := funext fun a => by match a with | ⟨0, _⟩ => rfl
  have e54 : idx_main_v54 (idx_main_v55 (ix2 r k)) = ix1 k := funext fun a => by match a with | ⟨0, _⟩ => rfl
  rw [e49, e51, e54, dev_eq', rstd_eq]
  rfl

theorem blend_eq (k : Fin 128) :
    val_main_v62 (F := Ideal) x0 x1 x2 x3 x5 x7 x8 x9 x10 (ix2 r k)
      = blend (XV x0 x2 x9 x10 r) (x3 (ix2 r (0 : Fin 1))) (fun k => x1 (ix2 r k)) (fun k => x7 (ix1 k)) (fun k => x8 (ix1 k)) (x5 ix0) k := by
  rw [val_main_v62_apply, val_main_v59_apply, val_main_v61_apply, val_main_v58_apply, val_main_v57_apply, val_main_cst_12_apply,
    val_main_v60_apply, norm_eq]
  have e58 : idx_main_v58 (ix2 r k) = ix0 := funext fun a => a.elim0
  have e60 : idx_main_v60 (ix2 r k) = ix0 := funext fun a => a.elim0
  rw [e58, e60]
  rfl

/-- THE REFERENCE'S RESULT is `nodeG` of its aggregated vertex features and the argument arrays. -/
theorem node_eq :
    val_main_v70 (F := Ideal) x0 x1 x2 x3 x4 x5 x6 x7 x8 x9 x10
      = nodeG (XV x0 x2 x9 x10) (fun r => x3 (ix2 r (0 : Fin 1))) (fun r k => x1 (ix2 r k)) (fun k => x7 (ix1 k)) (fun k => x8 (ix1 k))
          (fun k q => x4 (ix2 q k)) (x5 ix0) (x6 ix0) := by
  funext i
  obtain ⟨r, q, rfl⟩ : ∃ (r : Fin 100000) (q : Fin 128), i = ix2 r q := ⟨i 0, i 1, eq_ix2 i⟩
  rw [nodeG_ix2, val_main_v70_apply, val_main_v65_apply, val_main_v69_apply, val_main_v64_apply, val_main_v63_apply,
    val_main_cst_13_apply, val_main_v68_apply, val_main_v67_apply, blend_eq]
  have e64 : idx_main_v64 (ix2 r q) = ix0 := funext fun a => a.elim0
  have e68 : idx_main_v68 (ix2 r q) = ix0 := funext fun a => a.elim0
  rw [e64, e68]
  unfold out
  refine congrArg (fun s : EReal => (one - x6 ix0) * blend (XV x0 x2 x9 x10 r) (x3 (ix2 r (0 : Fin 1))) (fun k => x1 (ix2 r k))
    (fun k => x7 (ix1 k)) (fun k => x8 (ix1 k)) (x5 ix0) q + x6 ix0 * s) ?_
  refine Finset.sum_congr rfl fun k _ => ?_
  have el : lidx_main_v67 (ix2 r q) k = ix2 r k := funext fun a => by match a with | ⟨0, _⟩ => rfl | ⟨1, _⟩ => rfl
  have er : idx_main_v66 (ridx_main_v67 (ix2 r q) k) = ix2 q k := funext fun a => by match a with | ⟨0, _⟩ => rfl | ⟨1, _⟩ => rfl
  rw [el, blend_eq, val_main_v66_apply, er]

end Cert.ReferenceIdeal.RowValue

end
-- ==== Proof.Bridge.lean ====
/-
  The kernel's result is the reference's. Segment by segment: the edge kernel finds the reference's summed
  features and counts, so it leaves the reference's hyperedge features; the host lines between the kernels then
  leave the reference's aggregated vertex features; the node kernel finds those, the argument arrays, and the small
  operands recast (the weight and bias as one row, the matrix transposed, the scalars as one-element arrays), so
  it leaves the vertex-side result of those — which is what the reference's host lines compute from the same
  aggregated features and the arguments themselves: a row recast reads the vector at the lane, the transposed
  matrix at `(k, q)` reads the matrix at `(q, k)`, a one-element recast reads the scalar.
-/
import proofs.«129156_j67688684585239_2_alg».proof.Proof.KernelRun
import proofs.«129156_j67688684585239_2_alg».proof.Proof.EdgeValue
import proofs.«129156_j67688684585239_2_alg».proof.Proof.NodeValue
import proofs.«129156_j67688684585239_2_alg».proof.Proof.HostValue
import proofs.«129156_j67688684585239_2_alg».proof.Proof.RefValue
import Idealize.ShloMosaic.Lib.ValueLayout

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx Cert.RowSpec

variable (m : (ℓ : Loc nD τ sig) → Buf (Elt Ideal) ℓ) (ρ : Dev nD → PrngReg)

/-- After the edge kernel its output buffer holds the reference's hyperedge features. -/
theorem edge_out (c : Dev nD) :
    W2 m ρ c (Proc.devRef .tc main_v14) = Cert.ReferenceIdeal.Read.val_main_v19 (F := Ideal) (m ((c.tc : Thread nD τ).loc main_arg0)) (m ((c.tc : Thread nD τ).loc main_arg2)) (m ((c.tc : Thread nD τ).loc main_arg9)) (m ((c.tc : Thread nD τ).loc main_arg10)) := by
  rw [Out.W2_edge, EdgeValue.final, Cert.ReferenceIdeal.RowValue.edge_eq]
  show edgeG (fun r q => (V1 m ρ c main_v9 : S25000x128.Idx → EReal) (ix2 r q))
      (fun r => (V1 m ρ c main_v13 : S25000x1.Idx → EReal) (ix2 r (0 : Fin 1)))
      (fun r => (V1 m ρ c main_arg2 : S25000x1.Idx → EReal) (ix2 r (0 : Fin 1))) = _
  rw [HostValue.entry_esum, HostValue.entry_ecnt, HostValue.entry_degE]

/-- A vector recast as one row reads, at lane `k`, the vector at `k`. -/
theorem row_cast (x : S128.Idx → EReal) :
    (fun k : Fin 128 => (shapeCast S1x128 x shapeCasts_S128_S1x128 : S1x128.Idx → EReal) (ix2 (0 : Fin 1) k)) = fun k => x (ix1 k) :=
  funext fun k => shapeCast_a_1a_apply x shapeCasts_S128_S1x128 (0 : Fin 1) k

/-- The transposed matrix at `(k, q)` is the matrix at `(q, k)`. -/
theorem mat_transpose (x : S128x128.Idx → EReal) :
    (fun k q : Fin 128 => (transpose S128x128 [1, 0] x transposes_S128x128_S128x128_1_0 : S128x128.Idx → EReal) (ix2 k q)) = fun k q => x (ix2 q k) :=
  funext fun k => funext fun q => transpose_ix2_apply x transposes_S128x128_S128x128_1_0 k q

/-- A scalar recast as a one-element array reads the scalar. -/
theorem scalar_cast (x : S_.Idx → EReal) :
    (shapeCast S1x1 x shapeCasts_S_S1x1 : S1x1.Idx → EReal) (ix2 (0 : Fin 1) (0 : Fin 1)) = x ix0 :=
  shapeCast_apply x shapeCasts_S_S1x1 _ _ (by
    show (Shape.rowMajorPi _ _).val = _
    rw [Shape.rowMajorPi_zero, Shape.rowMajor_val_two]
    rfl)

/-- THE KERNEL'S RESULT: what the last segment boundary holds at the result buffer is the reference's result term
    of the same argument arrays. -/
theorem result_eq (c : Dev nD) :
    W4 m ρ c (Proc.devRef .tc main_v30) = Cert.ReferenceIdeal.Read.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Out.W4_out, NodeValue.final, Cert.ReferenceIdeal.RowValue.node_eq]
  show nodeG (fun r k => (V3 m ρ c main_v24 : S100000x128.Idx → EReal) (ix2 r k))
      (fun r => (V3 m ρ c main_arg3 : S100000x1.Idx → EReal) (ix2 r (0 : Fin 1)))
      (fun r k => (V3 m ρ c main_arg1 : S100000x128.Idx → EReal) (ix2 r k))
      (fun k => (V3 m ρ c main_v25 : S1x128.Idx → EReal) (ix2 (0 : Fin 1) k))
      (fun k => (V3 m ρ c main_v26 : S1x128.Idx → EReal) (ix2 (0 : Fin 1) k))
      (fun k q => (V3 m ρ c main_v27 : S128x128.Idx → EReal) (ix2 k q))
      ((V3 m ρ c main_v28 : S1x1.Idx → EReal) (ix2 (0 : Fin 1) (0 : Fin 1)))
      ((V3 m ρ c main_v29 : S1x1.Idx → EReal) (ix2 (0 : Fin 1) (0 : Fin 1))) = _
  rw [HostValue.entry_xv m ρ c (edge_out m ρ c), HostValue.entry_dv, HostValue.entry_x0, HostValue.entry_lw, HostValue.entry_lb,
    HostValue.entry_wt, HostValue.entry_al, HostValue.entry_be, row_cast, row_cast, mat_transpose, scalar_cast, scalar_cast]

end Cert.KernelIdeal.Bridge

end
-- ==== Proof.lean ====
/-
  The certificate of the hypergraph convolution kernel against its jnp reference, over the extended reals.

  Both programs gather the vertex features along the incidence pairs and segment-sum them into the hyperedges, take
  each hyperedge's mean (the sum over the larger of the incidence count and one) times its degree weight, gather the
  hyperedge features back along the pairs and segment-sum them into the vertices, and then, per vertex row: scale by
  the vertex degree weight, double (the residual), layer-normalise over the 128 lanes, blend with the initial
  features by `α`, and mix the blend with its product against the transposed matrix by `β`.
  The kernel program does the two dense stages in two tiled kernels (25 blocks of 1000 hyperedge rows; 25 blocks of
  4000 vertex rows) and leaves the gathers and segment sums to the same host operations the reference uses; at the
  ideal instance the two kernels compute, block by block, the same row-wise functions as the reference's host lines
  (a change of float format on the way into the matrix product is the identity, a lane sum or a matrix product is a
  plain sum in any tiling), the blocks tile the arrays, and the gathers and segment sums are the same terms of equal
  operands. No law that needs finiteness is used: the precondition is never opened.

  The three frames are the generated ones (the reference's is its generated run with the result dropped); the
  idealization rewrote nothing, so `preserves` is trivial.
-/
import proofs.«129156_j67688684585239_2_alg».proof.Defs
import proofs.«129156_j67688684585239_2_alg».proof.Proof.Gen.Kernel
import proofs.«129156_j67688684585239_2_alg».proof.Proof.Gen.Kernel.Skeleton
import proofs.«129156_j67688684585239_2_alg».proof.Proof.Gen.Kernel.Launch
import proofs.«129156_j67688684585239_2_alg».proof.Proof.Gen.Kernel.Points
import proofs.«129156_j67688684585239_2_alg».proof.Proof.Gen.Kernel.Frame
import proofs.«129156_j67688684585239_2_alg».proof.Proof.Gen.KernelIdeal
import proofs.«129156_j67688684585239_2_alg».proof.Proof.Gen.KernelIdeal.Skeleton
import proofs.«129156_j67688684585239_2_alg».proof.Proof.Gen.KernelIdeal.Launch
import proofs.«129156_j67688684585239_2_alg».proof.Proof.Gen.KernelIdeal.Points
import proofs.«129156_j67688684585239_2_alg».proof.Proof.Gen.KernelIdeal.Frame
import proofs.«129156_j67688684585239_2_alg».proof.Proof.Gen.ReferenceIdeal
import proofs.«129156_j67688684585239_2_alg».proof.Proof.Gen.ReferenceIdeal.Run
import proofs.«129156_j67688684585239_2_alg».proof.Proof.Gen.ReferenceIdeal.Read
import proofs.«129156_j67688684585239_2_alg».proof.Proof.Gen.Pre_finite_inputs
import proofs.«129156_j67688684585239_2_alg».proof.Proof.KernelRun
import proofs.«129156_j67688684585239_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's result term of the (agreeing) argument arrays: the kernel program by
    its run with the result named and the segment-by-segment reading of that result, the reference by its own run. -/
theorem algebraic : Cert.algebraic_KernelIdeal_ReferenceIdeal := by
  intro m ρ m' ρ' _ hagree
  refine ⟨fun c => Cert.ReferenceIdeal.Read.val_main_v70 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    ?_, ?_⟩
  · refine (θ_run Cert.KernelIdeal.defs _ _).mono (fun _ h c => ⟨(h c).1.trans (Cert.KernelIdeal.Bridge.result_eq m ρ c), (h c).2⟩)
      (Cert.KernelIdeal.Out.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v70_eq]
    obtain ⟨h0, h1, h2, h3, h4, h5, h6, h7, h8, h9, h10⟩ := hagree c
    rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
